-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S64x16384 : Shape := ⟨2, ![64, 16384]⟩

abbrev nBuf : Space → Nat
  | .hbm => 2
  | .vmem => 4
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x16384_S64x16384_0_0 : ∀ a, (![0, 0] : Fin 2 → Nat) a + S64x16384.size a ≤ S64x16384.size a
  h_S64x16384 : 0 < S64x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S8192x16384.size a
  hwx0_0 : ∀ i : grid0.Coords, EltTy.bits .f32 = 32 ∨ (Rect.block (s := S8192x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S8192x16384.size a
  hwx0_1 : ∀ i : grid0.Coords, EltTy.bits .f32 = 32 ∨ (Rect.block (s := S8192x16384) S64x16384.size (cc0_transform_1 i) (hinb0_1 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S_, .f32⟩
  | .hbm, ⟨2, _⟩ => ⟨S8192x16384, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S_, .f32⟩
  | .hbm, ⟨9, _⟩ => ⟨S8192x16384, .f32⟩
  | .hbm, ⟨10, _⟩ => ⟨S8192x16384, .f32⟩
  | .hbm, ⟨11, _⟩ => ⟨S_, .f32⟩
  | .hbm, ⟨12, _⟩ => ⟨S8192x16384, .f32⟩
  | .hbm, ⟨13, _⟩ => ⟨S8192x16384, .f32⟩
  | .hbm, ⟨14, _⟩ => ⟨S8192x16384, .f32⟩
  | .hbm, ⟨15, _⟩ => ⟨S8192x16384, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)

variable [Facts₀]

class Facts : Prop extends Facts₀ where

variable [Facts]
-- ==== Proof.FiniteEntries.lean ====
/-
  What the precondition says of the argument array. The precondition takes the absolute value of every entry, compares
  it with +∞ (the pattern 0x7F800000, which denotes the top of the extended reals) and asks that the conjunction of all
  these comparisons over the whole array be true. A conjunction over all entries that is true is true at each entry; and
  an extended real y with max y (−y) < ⊤ is neither ⊤ (then max ⊤ ⊥ = ⊤) nor ⊥ (then max ⊥ ⊤ = ⊤), so it is a real number.
-/
import proofs.«106523_j73667279061056_2_alg».proof.Proof.Gen.Pre_finite_inputs
import Idealize.ShloMosaic.Lib.ReduceAll
import Idealize.ShloMosaic.PureOps.Ideal

noncomputable section

namespace Cert.FiniteEntries

open Idealize.ShloMosaic Cert.Pre_finite_inputs

/-- The shape with no axes has exactly one index. -/
instance : Subsingleton S_.Idx := ⟨fun a b => funext fun d => d.elim0⟩

/-- An extended real whose absolute value compares below +∞ is a real number. -/
theorem real_of_abs_lt_top (y : EReal)
    (hy : Ideal.cmp .olt (max y (-y)) (Ideal.ofBits .f32 0x7F800000#32) = 1#1) : ∃ r : ℝ, y = (r : EReal) := by
  have htop : Ideal.ofBits .f32 0x7F800000#32 = ⊤ := by simp [Ideal.ofBits, Ideal.ieee]
  rw [htop] at hy
  unfold Ideal.cmp at hy
  induction y using EReal.rec with
  | bot => simp at hy
  | top => simp at hy
  | coe r => exact ⟨r, rfl⟩

/-- Under the precondition every entry of the argument array is a real number: the precondition's conjunction over the
    array, read at the entry `i`, is the comparison |x i| < +∞. -/
theorem real_of_pre (x : FVec Ideal S8192x16384 .f32)
    (h : Cert.Pre_finite_inputs.fn (F := Ideal) x = fun _ => 1#1) (i : S8192x16384.Idx) :
    ∃ r : ℝ, x i = (r : EReal) := by
  have h0 := congrFun h (fun d => d.elim0)
  dsimp only [Cert.Pre_finite_inputs.fn] at h0
  exact real_of_abs_lt_top (x i) (Host.reduce_andi_all _ _ _ _ _ h0 i)

end Cert.FiniteEntries

end
-- ==== Proof.Quadratic.lean ====
/-
  The two programs compute one quadratic. The kernel evaluates  x · (9/2 − (1/2) · x) + 2 ; the reference evaluates
  (x + 2) + x · 3 − (x − 1) · (x · (1/2)) . Both are  −x²/2 + 9x/2 + 2  on the real line: expanding the reference gives
  x + 2 + 3x − (x²/2 − x/2), and expanding the kernel gives 9x/2 − x²/2 + 2. The expansion uses distributivity, which on
  the extended reals holds only away from the infinities, so the identity is stated for a REAL argument.
  The five float patterns the two programs spell (2, 3, 1, 1/2 and 9/2) are dyadic rationals, exactly representable, and
  each denotes that rational.
-/
import Idealize.ShloMosaic.PureOps.Ideal

noncomputable section

namespace Cert.Quadratic

open Idealize.ShloMosaic

/-- The pattern of `2.0` denotes the real 2. -/
theorem ofBits_two : Ideal.ofBits .f32 0x40000000#32 = ((2 : ℝ) : EReal) := by
  simp [Ideal.ofBits, Ideal.ieee, -EReal.coe_mul]; norm_num

/-- The pattern of `3.0` denotes the real 3. -/
theorem ofBits_three : Ideal.ofBits .f32 0x40400000#32 = ((3 : ℝ) : EReal) := by
  simp [Ideal.ofBits, Ideal.ieee, -EReal.coe_mul]; norm_num

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `4.5` denotes the real 9/2. -/
theorem ofBits_nine_halves : Ideal.ofBits .f32 0x40900000#32 = ((9 / 2 : ℝ) : EReal) := by
  simp [Ideal.ofBits, Ideal.ieee, -EReal.coe_mul]; norm_num

/-- On a real argument the reference's expression and the kernel's are the same extended real: both are the real
    number −r²/2 + 9r/2 + 2. -/
theorem quadratic_eq (r : ℝ) :
    ((r : EReal) + Ideal.ofBits .f32 0x40000000#32 + (r : EReal) * Ideal.ofBits .f32 0x40400000#32)
        - ((r : EReal) - Ideal.ofBits .f32 0x3F800000#32) * ((r : EReal) * Ideal.ofBits .f32 0x3F000000#32)
      = (r : EReal) * (Ideal.ofBits .f32 0x40900000#32 - Ideal.ofBits .f32 0x3F000000#32 * (r : EReal))
        + Ideal.ofBits .f32 0x40000000#32 := by
  rw [ofBits_two, ofBits_three, ofBits_one, ofBits_half, ofBits_nine_halves]
  have h : (r + 2 + r * 3) - (r - 1) * (r * (1 / 2)) = r * (9 / 2 - 1 / 2 * r) + 2 := by ring
  exact_mod_cast congrArg (fun t : ℝ => (t : EReal)) h

end Cert.Quadratic

end
-- ==== Proof.ArrayEq.lean ====
/-
  The reference's result array is the kernel's, entry by entry, when every entry of the argument is real.
  The reference applies its seven elementwise operations to the whole 8192 × 16384 array, each constant spread over the
  array from a one-element array; read at an entry `i` this is  (x i + 2) + x i · 3 − (x i − 1) · (x i · (1/2)) .
  The kernel's array after its run is, at the entry `i`,  x i · (9/2 − (1/2) · x i) + 2  (the blocks of 64 rows tile the
  array, and the body is the same pointwise expression in every block). For real `x i` the two are one number.
-/
import proofs.«106523_j73667279061056_2_alg».proof.Proof.Gen.KernelIdeal.Value
import proofs.«106523_j73667279061056_2_alg».proof.Proof.Gen.ReferenceIdeal.Run
import proofs.«106523_j73667279061056_2_alg».proof.Proof.Quadratic

noncomputable section

namespace Cert.ArrayEq

open Idealize.ShloMosaic Cert.ReferenceIdeal Cert.ReferenceIdeal.Gen

/-- The reference run's result term is the kernel's whole-array function of the argument, at every entry, for an
    argument array of real numbers. -/
theorem result_eq (x : FVec Ideal S8192x16384 .f32) (hx : ∀ i, ∃ r : ℝ, x i = (r : EReal)) :
    subf (addf (addf x (broadcastInDim S8192x16384 ![] bcast_S_S8192x16384 (constant S_ .f32 0x40000000#32)))
        (mulf x (broadcastInDim S8192x16384 ![] bcast_S_S8192x16384 (constant S_ .f32 0x40400000#32))))
      (mulf (subf x (broadcastInDim S8192x16384 ![] bcast_S_S8192x16384 (constant S_ .f32 0x3F800000#32)))
        (mulf x (broadcastInDim S8192x16384 ![] bcast_S_S8192x16384 (constant S_ .f32 0x3F000000#32))))
      = Cert.KernelIdeal.Value.G1 (F := Ideal) x := by
  funext i
  obtain ⟨r, hr⟩ := hx i
  simp only [Cert.KernelIdeal.Value.G1, subf, addf, mulf, broadcastInDim, constant, Ideal.addf_def, Ideal.subf_def,
    Ideal.mulf_def, Ideal.ofBits_def, hr]
  exact Cert.Quadratic.quadratic_eq r

end Cert.ArrayEq

end
-- ==== Proof.lean ====
/-
  The kernel cuts the 8192 × 16384 array into 128 blocks of 64 full rows and writes, in each block and at each entry,
  x · (9/2 − (1/2) · x) + 2 ; the reference computes (x + 2) + x · 3 − (x − 1) · (x · (1/2)) on the whole array. Both are
  the quadratic −x²/2 + 9x/2 + 2. The blocks tile the array and the body is pointwise, so the kernel's result array is
  one function of the argument array entry by entry; the reference's is its seven elementwise operations composed. The
  two agree at every entry by expanding both products, which needs distributivity, so the proof uses the precondition:
  every entry of the argument is a real number (Proof/FiniteEntries.lean), and on a real number the two expressions are
  one (Proof/Quadratic.lean, lifted to the arrays in Proof/ArrayEq.lean). Nothing was rewritten between the word-level
  kernel and its idealization, so that conjunct is trivially true; each program terminates without a fault and leaves
  its argument array as it found it.
-/
import proofs.«106523_j73667279061056_2_alg».proof.Defs
import proofs.«106523_j73667279061056_2_alg».proof.Proof.Gen.Kernel.Frame
import proofs.«106523_j73667279061056_2_alg».proof.Proof.Gen.KernelIdeal.Value
import proofs.«106523_j73667279061056_2_alg».proof.Proof.Gen.Pre_finite_inputs
import proofs.«106523_j73667279061056_2_alg».proof.Proof.Gen.ReferenceIdeal.Run
import proofs.«106523_j73667279061056_2_alg».proof.Proof.FiniteEntries
import proofs.«106523_j73667279061056_2_alg».proof.Proof.ArrayEq
import Idealize.ShloMosaic.Adequacy
import Idealize.ShloMosaic.Init

noncomputable section

namespace Cert.Proof

open Idealize.ShloMosaic Idealize.SL.Sem

/-- The idealized kernel terminates without a fault and its argument array ends unchanged. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and its argument array ends unchanged. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the argument, the kernel's result array and the reference's are equal entry by entry:
    the argument's entries are real by the precondition, and on a real entry both programs give −x²/2 + 9x/2 + 2. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.ArrayEq.result_eq _ (Cert.FiniteEntries.real_of_pre _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
